-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024x1 : Shape := ⟨4, ![16, 1024, 1024, 1]⟩
abbrev S_ : Shape := ⟨0, ![]⟩

class Facts : Prop where
  bcast_S_S16x1024x1024x1 : S_.BroadcastsInDim S16x1024x1024x1 (![] : Fin 0 → Fin S16x1024x1024x1.rank)
  reducesTo_S16x1024x1024x1_S_d0_1_2_3 : S16x1024x1024x1.ReducesTo [0, 1, 2, 3] S_
  h_S_ : 0 < S_.numel

variable [Facts]

def fn {F : FTy → Type} [FloatOps F] (main_arg0 : FVec F S16x1024x1024x1 .f32) : IVec S_ 1 :=
  let main_v0 : FVec F S16x1024x1024x1 .f32 := Host.absf main_arg0
  let main_cst : FVec F S_ .f32 := constant S_ .f32 0x7F800000#32
  let main_v1 : FVec F S16x1024x1024x1 .f32 := broadcastInDim S16x1024x1024x1 ![] bcast_S_S16x1024x1024x1 main_cst
  let main_v2 : IVec S16x1024x1024x1 1 := cmpf .olt main_v0 main_v1
  let main_c : IVec S_ 1 := constantI S_ 1 1#1
  let main_v3 : IVec S_ 1 := (fun x v => Host.reduce IntOp.andi x v reducesTo_S16x1024x1024x1_S_d0_1_2_3 h_S_) main_v2 main_c
  main_v3
-- ==== Kernel.lean ====
abbrev S16x1024x1024x1 : Shape := ⟨4, ![16, 1024, 1024, 1]⟩
abbrev S16x1024x1024 : Shape := ⟨3, ![16, 1024, 1024]⟩
abbrev S1x1024x1024 : Shape := ⟨3, ![1, 1024, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x1024x1024x1, .f32⟩
  | .hbm, ⟨1, _⟩ => ⟨S16x1024x1024, .f32⟩
  | .hbm, ⟨2, _⟩ => ⟨S16x1024x1024, .f32⟩
  | .hbm, ⟨3, _⟩ => ⟨S16x1024x1024x1, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S16x1024x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x1024x1024x1_S16x1024x1024 : S16x1024x1024x1.ShapeCasts S16x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x1_d0_w32 : S1024x1.Iotas .tc 32 [0]
  iota_S1x1024_d1_w32 : S1x1024.Iotas .tc 32 [1]
  rotates_S1024x1024_d0 : S1024x1024.Rotates 0 none
  broadcasts_S1024x1_S1024x1024 : S1024x1.Broadcasts S1024x1024
  rotates_S1024x1024_d1 : S1024x1024.Rotates 1 none
  broadcasts_S1x1024_S1024x1024 : S1x1024.Broadcasts S1024x1024
  natLt_1_32 : 1 < 32
  shapeCasts_S1024x1024_S1x1024x1024 : S1024x1024.ShapeCasts S1x1024x1024
  shapeCasts_S16x1024x1024_S16x1024x1024x1 : S16x1024x1024.ShapeCasts S16x1024x1024x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x1024x1 : Shape := ⟨4, ![16, 1024, 1024, 1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16x1024x1024x1, .f32⟩
  | .hbm, ⟨1, _⟩ => ⟨S_, .f32⟩
  | .hbm, ⟨2, _⟩ => ⟨S16x1024x1024x1, .f32⟩
  | .hbm, ⟨3, _⟩ => ⟨S_, .f32⟩
  | .hbm, ⟨4, _⟩ => ⟨S_, .f32⟩
  | .hbm, ⟨5, _⟩ => ⟨S16x1024x1024x1, .f32⟩
  | .hbm, ⟨6, _⟩ => ⟨S16x1024x1024x1, .i1⟩
  | .hbm, ⟨7, _⟩ => ⟨S16x1024x1024x1, .f32⟩
  | .hbm, ⟨8, _⟩ => ⟨S_, .f32⟩
  | .hbm, ⟨9, _⟩ => ⟨S_, .f32⟩
  | .hbm, ⟨10, _⟩ => ⟨S16x1024x1024x1, .f32⟩
  | .hbm, ⟨11, _⟩ => ⟨S_, .f32⟩
  | .hbm, ⟨12, _⟩ => ⟨S16x1024x1024x1, .f32⟩
  | .hbm, ⟨13, _⟩ => ⟨S16x1024x1024x1, .i1⟩
  | .hbm, ⟨14, _⟩ => ⟨S16x1024x1024x1, .f32⟩
  | .hbm, ⟨15, _⟩ => ⟨S_, .f32⟩
  | .hbm, ⟨16, _⟩ => ⟨S_, .f32⟩
  | .hbm, ⟨17, _⟩ => ⟨S16x1024x1024x1, .f32⟩
  | .hbm, ⟨18, _⟩ => ⟨S16x1024x1024x1, .i1⟩
  | .hbm, ⟨19, _⟩ => ⟨S16x1024x1024x1, .i1⟩
  | .hbm, ⟨20, _⟩ => ⟨S16x1024x1024x1, .i1⟩
  | .hbm, ⟨21, _⟩ => ⟨S16x1024x1024x1, .i1⟩
  | .hbm, ⟨22, _⟩ => ⟨S16x1024x1024x1, .f32⟩
  | .hbm, ⟨23, _⟩ => ⟨S_, .f32⟩
  | .hbm, ⟨24, _⟩ => ⟨S_, .f32⟩
  | .hbm, ⟨25, _⟩ => ⟨S16x1024x1024x1, .f32⟩
  | .hbm, ⟨26, _⟩ => ⟨S_, .f32⟩
  | .hbm, ⟨27, _⟩ => ⟨S16x1024x1024x1, .f32⟩
  | .hbm, ⟨28, _⟩ => ⟨S16x1024x1024x1, .i1⟩
  | .hbm, ⟨29, _⟩ => ⟨S16x1024x1024x1, .f32⟩
  | .hbm, ⟨30, _⟩ => ⟨S_, .f32⟩
  | .hbm, ⟨31, _⟩ => ⟨S_, .f32⟩
  | .hbm, ⟨32, _⟩ => ⟨S16x1024x1024x1, .f32⟩
  | .hbm, ⟨33, _⟩ => ⟨S16x1024x1024x1, .i1⟩
  | .hbm, ⟨34, _⟩ => ⟨S16x1024x1024x1, .i1⟩
  | .hbm, ⟨35, _⟩ => ⟨S16x1024x1024x1, .i1⟩
  | .hbm, ⟨36, _⟩ => ⟨S16x1024x1024x1, .i1⟩
  | .hbm, ⟨37, _⟩ => ⟨S16x1024x1024x1, .f32⟩
  | _, _ => ⟨S16x1024x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S_S16x1024x1024x1 : S_.BroadcastsInDim S16x1024x1024x1 (![] : Fin 0 → Fin S16x1024x1024x1.rank)
  bcast_S_S_ : S_.BroadcastsInDim S_ (![] : Fin 0 → Fin S_.rank)
  reduceWindows_S16x1024x1024x1_S16x1024x1024x1_w1s1p0_0_w3s1p1_1_w3s1p1_1_w1s1p0_0 : S16x1024x1024x1.ReduceWindows (![1, 3, 3, 1] : Fin 4 → Nat) ![1, 1, 1, 1] ![0, 1, 1, 0] ![0, 1, 1, 0] S16x1024x1024x1
  h_S_ : 0 < S_.numel

variable [Facts₀]

class Facts : Prop extends Facts₀ where

variable [Facts]
-- ==== Proof.LibPool3.lean ====
/-
  Three-tap pooling with padding, along one axis and separably along two.

  Carrier `L`, a combining operation `f : L → L → L` and a padding element `e`. Along an axis of extent `n`
  the pool at position `i` combines the entry at `i` with the entries just before and just after it, the
  padding element standing in where `i` is the first or the last position:

      pool1 f e a i = f (a i) (f (a (i-1) or e) (a (i+1) or e)).

  Pooling first along the rows and then along the columns, `pool2`, combines the entries of the 3 × 3
  neighbourhood of `(i, j)` that lie inside the array.

  Nothing is assumed of `f` (no associativity, no commutativity). What is proved is how a predicate `Q` that
  SPLITS over `f` — `Q (f x y) ↔ Q x ∧ Q y` — and holds of the padding element reads a pooled value:
  `Q` holds of the pool iff it holds of every entry of the neighbourhood (`pool1_pred`, `pool2_pred`); the same
  for a left fold of `f` over a list (`foldl_pred`). With `f = max` on a linear order and `Q = (· ≤ c)` this is
  "the pool's upper bounds are the common upper bounds of the neighbourhood", which determines the pool; with
  `f` the bitwise or on one-bit words and `Q = (· = 0)` it is "the pool is clear iff every neighbour is clear".
  A map `h` that carries one combining operation to another carries pools to pools (`pool1_map`, `pool2_map`).
-/
import Mathlib.Order.Lattice
import Mathlib.Data.Fin.Basic
import Mathlib.Data.List.Basic
import Mathlib.Tactic

namespace Pool3

variable {L M : Type*}

/-- Positions at distance at most one on an axis. -/
def Near {n : ℕ} (k i : Fin n) : Prop := k.val ≤ i.val + 1 ∧ i.val ≤ k.val + 1

theorem near_self {n : ℕ} (i : Fin n) : Near i i := ⟨Nat.le_succ _, Nat.le_succ _⟩

/-- The tap before position `i`: the entry at `i - 1`, the padding element at the first position. -/
def before (e : L) {n : ℕ} (a : Fin n → L) (i : Fin n) : L :=
  if h : i.val = 0 then e else a ⟨i.val - 1, by have := i.isLt; omega⟩

/-- The tap after position `i`: the entry at `i + 1`, the padding element at the last position. -/
def after (e : L) {n : ℕ} (a : Fin n → L) (i : Fin n) : L :=
  if h : i.val + 1 < n then a ⟨i.val + 1, h⟩ else e

/-- The three-tap pool along one axis. -/
def pool1 (f : L → L → L) (e : L) {n : ℕ} (a : Fin n → L) (i : Fin n) : L :=
  f (a i) (f (before e a i) (after e a i))

/-- The separable pool along two axes: the first axis inside, the second outside. -/
def pool2 (f : L → L → L) (e : L) {n m : ℕ} (a : Fin n → Fin m → L) (i : Fin n) (j : Fin m) : L :=
  pool1 f e (fun j' => pool1 f e (fun i' => a i' j') i) j

section Pred
variable (f : L → L → L) (Q : L → Prop) (hf : ∀ x y, Q (f x y) ↔ Q x ∧ Q y)
include hf

/-- A predicate that splits over `f` holds of a left fold of `f` iff it holds of the start and of every term. -/
theorem foldl_pred {ι : Type*} (g : ι → L) (l : List ι) (v : L) :
    Q (l.foldl (fun r n => f r (g n)) v) ↔ Q v ∧ ∀ n ∈ l, Q (g n) := by
  induction l generalizing v with
  | nil => simp
  | cons n l ih =>
    rw [List.foldl_cons, ih, hf]
    constructor
    · rintro ⟨⟨hv, hn⟩, hl⟩
      exact ⟨hv, fun k hk => by
        rcases List.mem_cons.1 hk with rfl | hk
        · exact hn
        · exact hl k hk⟩
    · rintro ⟨hv, hl⟩
      exact ⟨⟨hv, hl n (List.mem_cons_self)⟩, fun k hk => hl k (List.mem_cons_of_mem _ hk)⟩

variable {e : L} (he : Q e)
include he

/-- A predicate that splits over `f` and holds of the padding holds of the one-axis pool at `i` iff it holds of
    every entry at distance at most one from `i`. -/
theorem pool1_pred {n : ℕ} (a : Fin n → L) (i : Fin n) :
    Q (pool1 f e a i) ↔ ∀ k, Near k i → Q (a k) := by
  unfold pool1
  rw [hf, hf]
  constructor
  · rintro ⟨h0, hb, ha⟩ k ⟨hk1, hk2⟩
    rcases Nat.lt_trichotomy k.val i.val with hlt | heq | hgt
    · have hne : ¬ i.val = 0 := by omega
      unfold before at hb
      rw [dif_neg hne] at hb
      have : (⟨i.val - 1, by have := i.isLt; omega⟩ : Fin n) = k := Fin.ext (by show i.val - 1 = k.val; omega)
      rwa [this] at hb
    · have : k = i := Fin.ext heq
      rwa [this]
    · have hlt : i.val + 1 < n := by have := k.isLt; omega
      unfold after at ha
      rw [dif_pos hlt] at ha
      have : (⟨i.val + 1, hlt⟩ : Fin n) = k := Fin.ext (by show i.val + 1 = k.val; omega)
      rwa [this] at ha
  · intro h
    refine ⟨h i (near_self i), ?_, ?_⟩
    · unfold before
      split
      · exact he
      · exact h _ ⟨by show i.val - 1 ≤ i.val + 1; omega, by show i.val ≤ i.val - 1 + 1; omega⟩
    · unfold after
      split
      · exact h _ ⟨by show i.val + 1 ≤ i.val + 1; omega, by show i.val ≤ i.val + 1 + 1; omega⟩
      · exact he

/-- The same along two axes: the predicate holds of the separable pool at `(i, j)` iff it holds of every entry of
    the 3 × 3 neighbourhood of `(i, j)` inside the array. -/
theorem pool2_pred {n m : ℕ} (a : Fin n → Fin m → L) (i : Fin n) (j : Fin m) :
    Q (pool2 f e a i j) ↔ ∀ k l, Near k i → Near l j → Q (a k l) := by
  unfold pool2
  rw [pool1_pred f Q hf he]
  constructor
  · intro h k l hk hl
    exact (pool1_pred f Q hf he (fun i' => a i' l) i).1 (h l hl) k hk
  · intro h l hl
    exact (pool1_pred f Q hf he (fun i' => a i' l) i).2 (fun k hk => h k l hk hl)

end Pred

section Map
variable (f : L → L → L) (f' : M → M → M) (h : M → L) (hh : ∀ x y, h (f' x y) = f (h x) (h y))
  {e : L} {e' : M} (he : h e' = e)
include he

theorem before_map {n : ℕ} (a : Fin n → M) (i : Fin n) :
    h (before e' a i) = before e (fun k => h (a k)) i := by
  unfold before; split
  · exact he
  · rfl

theorem after_map {n : ℕ} (a : Fin n → M) (i : Fin n) :
    h (after e' a i) = after e (fun k => h (a k)) i := by
  unfold after; split
  · rfl
  · exact he

include hh

/-- A map carrying `f'` to `f` and padding to padding carries the one-axis pool to the pool of the images. -/
theorem pool1_map {n : ℕ} (a : Fin n → M) (i : Fin n) :
    h (pool1 f' e' a i) = pool1 f e (fun k => h (a k)) i := by
  unfold pool1
  rw [hh, hh, before_map h he, after_map h he]

/-- And the two-axis pool likewise. -/
theorem pool2_map {n m : ℕ} (a : Fin n → Fin m → M) (i : Fin n) (j : Fin m) :
    h (pool2 f' e' a i j) = pool2 f e (fun k l => h (a k l)) i j := by
  unfold pool2
  rw [pool1_map f f' h hh he]
  congr 1
  funext j'
  exact pool1_map f f' h hh he (fun i' => a i' j') i

end Map

/-- Two elements of a partial order with the same upper bounds are equal: the form in which two pools by `max`
    are compared. -/
theorem eq_of_le_iff {L : Type*} [PartialOrder L] {x y : L} (h : ∀ c, x ≤ c ↔ y ≤ c) : x = y :=
  le_antisymm ((h y).2 le_rfl) ((h x).1 le_rfl)

end Pool3
-- ==== Proof.LibRollPool.lean ====
/-
  A separable 3 × 3 pool written with rotations, read at an index.

  On a 1024 × 1024 vector `a` a kernel forms, along the rows,

      up   = g (rotate a by 1    along axis 0) (top  broadcast along the columns)
      down = g (rotate a by 1023 along axis 0) (bot  broadcast along the columns)
      rows = f a (f up down)

  and then the same along the columns of `rows` (rotations along axis 1, edge vectors `left`, `right` broadcast along the
  rows). A rotation by 1 brings entry `i - 1` to position `i` and wraps the last entry round to position 0; a rotation
  by 1023 = 1024 - 1 brings entry `i + 1` to position `i` and wraps the first entry round to the last position. The
  edge vectors are there to kill the wrapped entry: `g y (top i)` is a padding element `e` at `i = 0` and `y` elsewhere,
  and so on for the other three edges. Under exactly those four hypotheses the arrangement at `(i, j)` is the separable
  three-tap pool `Pool3.pool2 f e` of the entries of `a` (`rolled_apply`). Nothing is assumed of `f` and `g`: with
  `g = (+)` and edge values `-∞` / `0` on the extended reals, or with `g = (*)` and edge values `0` / `1` on machine
  words, the hypotheses hold (`edge_col`, `edge_row` read such edge vectors, built from an iota compared with a constant).
-/
import Idealize.ShloMosaic.Lib.KernelVsHost
import proofs.«143672_j86775519248474_2_alg».proof.Proof.LibPool3

namespace RollPool

open Idealize.ShloMosaic Idealize.ShloMosaic.ValueIdx Pool3

/-- The image, a column of it and a row of it, as vector shapes. -/
abbrev Img : Shape := ⟨2, ![1024, 1024]⟩
abbrev Col : Shape := ⟨2, ![1024, 1]⟩
abbrev Row : Shape := ⟨2, ![1, 1024]⟩

variable {α β : Type}

/-! ## Rotations and edge broadcasts at an index -/

/-- Rotating by 1 along axis 0 brings row `i - 1` (row 1023 for `i = 0`) to row `i`. -/
theorem rot0_one (a : Img.Idx → α) (h0 : Img.Rotates 0 none) (i j : Fin 1024) :
    dynamicRotate 0 1#32 none a h0 (ix2 i j) = a (ix2 ⟨(i.val + 1023) % 1024, Nat.mod_lt _ (by decide)⟩ j) :=
  dynamicRotate_apply 0 1#32 a h0 (ix2 i j) _ (fun b => by
    match b with
    | ⟨0, _⟩ => rfl
    | ⟨1, _⟩ => rfl)

/-- Rotating by 1023 along axis 0 brings row `i + 1` (row 0 for `i = 1023`) to row `i`. -/
theorem rot0_last (a : Img.Idx → α) (h0 : Img.Rotates 0 none) (i j : Fin 1024) :
    dynamicRotate 0 1023#32 none a h0 (ix2 i j) = a (ix2 ⟨(i.val + 1) % 1024, Nat.mod_lt _ (by decide)⟩ j) :=
  dynamicRotate_apply 0 1023#32 a h0 (ix2 i j) _ (fun b => by
    match b with
    | ⟨0, _⟩ => rfl
    | ⟨1, _⟩ => rfl)

theorem rot1_one (a : Img.Idx → α) (h1 : Img.Rotates 1 none) (i j : Fin 1024) :
    dynamicRotate 1 1#32 none a h1 (ix2 i j) = a (ix2 i ⟨(j.val + 1023) % 1024, Nat.mod_lt _ (by decide)⟩) :=
  dynamicRotate_apply 1 1#32 a h1 (ix2 i j) _ (fun b => by
    match b with
    | ⟨0, _⟩ => rfl
    | ⟨1, _⟩ => rfl)

theorem rot1_last (a : Img.Idx → α) (h1 : Img.Rotates 1 none) (i j : Fin 1024) :
    dynamicRotate 1 1023#32 none a h1 (ix2 i j) = a (ix2 i ⟨(j.val + 1) % 1024, Nat.mod_lt _ (by decide)⟩) :=
  dynamicRotate_apply 1 1023#32 a h1 (ix2 i j) _ (fun b => by
    match b with
    | ⟨0, _⟩ => rfl
    | ⟨1, _⟩ => rfl)

/-- A column vector broadcast over the image reads its row's entry. -/
theorem bcast_col (v : Col.Idx → β) (hc : Col.Broadcasts Img) (i j : Fin 1024) :
    broadcastTo Img v hc (ix2 i j) = v (ix2 i 0) :=
  broadcastTo_apply v hc (ix2 i j) (ix2 i 0) (fun a => by
    match a with
    | ⟨0, _⟩ => rfl
    | ⟨1, _⟩ => rfl)

/-- A row vector broadcast over the image reads its column's entry. -/
theorem bcast_row (v : Row.Idx → β) (hr : Row.Broadcasts Img) (i j : Fin 1024) :
    broadcastTo Img v hr (ix2 i j) = v (ix2 0 j) :=
  broadcastTo_apply v hr (ix2 i j) (ix2 0 j) (fun a => by
    match a with
    | ⟨0, _⟩ => rfl
    | ⟨1, _⟩ => rfl)

/-! ## The arrangement -/

/-- The kernel's arrangement of a separable pool: rotations, edge vectors, `g` to apply an edge vector, `f` to combine. -/
def rolled (f : α → α → α) (g : α → β → α) (top bot : Col.Idx → β) (left right : Row.Idx → β)
    (h0 : Img.Rotates 0 none) (h1 : Img.Rotates 1 none) (hc : Col.Broadcasts Img) (hr : Row.Broadcasts Img)
    (a : Img.Idx → α) : Img.Idx → α :=
  let rows : Img.Idx → α := fun y =>
    f (a y) (f (g (dynamicRotate 0 1#32 none a h0 y) (broadcastTo Img top hc y))
               (g (dynamicRotate 0 1023#32 none a h0 y) (broadcastTo Img bot hc y)))
  fun y =>
    f (rows y) (f (g (dynamicRotate 1 1#32 none rows h1 y) (broadcastTo Img left hr y))
                  (g (dynamicRotate 1 1023#32 none rows h1 y) (broadcastTo Img right hr y)))

section Apply
variable (f : α → α → α) (g : α → β → α) (e : α) (top bot : Col.Idx → β) (left right : Row.Idx → β)
  (h0 : Img.Rotates 0 none) (h1 : Img.Rotates 1 none) (hc : Col.Broadcasts Img) (hr : Row.Broadcasts Img)
  (htop : ∀ (i : Fin 1024) (y : α), g y (top (ix2 i 0)) = if i.val = 0 then e else y)
  (hbot : ∀ (i : Fin 1024) (y : α), g y (bot (ix2 i 0)) = if i.val + 1 < 1024 then y else e)
  (hleft : ∀ (j : Fin 1024) (y : α), g y (left (ix2 0 j)) = if j.val = 0 then e else y)
  (hright : ∀ (j : Fin 1024) (y : α), g y (right (ix2 0 j)) = if j.val + 1 < 1024 then y else e)

include htop in
/-- The masked tap from above is the pool's tap before `i` along the rows. -/
theorem tap_up (a : Img.Idx → α) (i j : Fin 1024) :
    g (dynamicRotate 0 1#32 none a h0 (ix2 i j)) (broadcastTo Img top hc (ix2 i j))
      = before e (fun i' => a (ix2 i' j)) i := by
  rw [rot0_one, bcast_col, htop]
  unfold before
  by_cases hi : i.val = 0
  · rw [if_pos hi, dif_pos hi]
  · rw [if_neg hi, dif_neg hi]
    have : (⟨(i.val + 1023) % 1024, Nat.mod_lt _ (by decide)⟩ : Fin 1024) = ⟨i.val - 1, by have := i.isLt; omega⟩ :=
      Fin.ext (by show (i.val + 1023) % 1024 = i.val - 1; have := i.isLt; omega)
    rw [this]

include hbot in
theorem tap_down (a : Img.Idx → α) (i j : Fin 1024) :
    g (dynamicRotate 0 1023#32 none a h0 (ix2 i j)) (broadcastTo Img bot hc (ix2 i j))
      = after e (fun i' => a (ix2 i' j)) i := by
  rw [rot0_last, bcast_col, hbot]
  unfold after
  by_cases hi : i.val + 1 < 1024
  · rw [if_pos hi, dif_pos hi]
    have : (⟨(i.val + 1) % 1024, Nat.mod_lt _ (by decide)⟩ : Fin 1024) = ⟨i.val + 1, hi⟩ :=
      Fin.ext (by show (i.val + 1) % 1024 = i.val + 1; omega)
    rw [this]
  · rw [if_neg hi, dif_neg hi]

include hleft in
theorem tap_left (a : Img.Idx → α) (i j : Fin 1024) :
    g (dynamicRotate 1 1#32 none a h1 (ix2 i j)) (broadcastTo Img left hr (ix2 i j))
      = before e (fun j' => a (ix2 i j')) j := by
  rw [rot1_one, bcast_row, hleft]
  unfold before
  by_cases hj : j.val = 0
  · rw [if_pos hj, dif_pos hj]
  · rw [if_neg hj, dif_neg hj]
    have : (⟨(j.val + 1023) % 1024, Nat.mod_lt _ (by decide)⟩ : Fin 1024) = ⟨j.val - 1, by have := j.isLt; omega⟩ :=
      Fin.ext (by show (j.val + 1023) % 1024 = j.val - 1; have := j.isLt; omega)
    rw [this]

include hright in
theorem tap_right (a : Img.Idx → α) (i j : Fin 1024) :
    g (dynamicRotate 1 1023#32 none a h1 (ix2 i j)) (broadcastTo Img right hr (ix2 i j))
      = after e (fun j' => a (ix2 i j')) j := by
  rw [rot1_last, bcast_row, hright]
  unfold after
  by_cases hj : j.val + 1 < 1024
  · rw [if_pos hj, dif_pos hj]
    have : (⟨(j.val + 1) % 1024, Nat.mod_lt _ (by decide)⟩ : Fin 1024) = ⟨j.val + 1, hj⟩ :=
      Fin.ext (by show (j.val + 1) % 1024 = j.val + 1; omega)
    rw [this]
  · rw [if_neg hj, dif_neg hj]

include htop hbot hleft hright in
/-- THE ARRANGEMENT AT AN INDEX is the separable three-tap pool of the entries. -/
theorem rolled_apply (a : Img.Idx → α) (i j : Fin 1024) :
    rolled f g top bot left right h0 h1 hc hr a (ix2 i j) = pool2 f e (fun i' j' => a (ix2 i' j')) i j := by
  have hrows : ∀ (i' j' : Fin 1024),
      f (a (ix2 i' j')) (f (g (dynamicRotate 0 1#32 none a h0 (ix2 i' j')) (broadcastTo Img top hc (ix2 i' j')))
               (g (dynamicRotate 0 1023#32 none a h0 (ix2 i' j')) (broadcastTo Img bot hc (ix2 i' j'))))
        = pool1 f e (fun k => a (ix2 k j')) i' := fun i' j' => by
    rw [tap_up g e top h0 hc htop, tap_down g e bot h0 hc hbot]; rfl
  unfold rolled
  dsimp only
  rw [tap_left g e left h1 hr hleft, tap_right g e right h1 hr hright, hrows]
  unfold pool2 pool1
  simp only [hrows]
  rfl

end Apply

/-! ## Edge vectors built from an iota -/

theorem ofNat_eq_iff {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- A column edge vector: `p` at row `c`, `q` elsewhere (an iota along the rows compared with the constant `c`). -/
theorem edge_col {γ : Type} (c : ℕ) (hc : c < 1024) (p q : γ) (hi : Col.Iotas .tc 32 [0]) (i : Fin 1024) :
    select (cmpi .eq (iota .tc Col 32 [0] hi) (broadcast Col (BitVec.ofNat 32 c))) (broadcast Col p) (broadcast Col q) (ix2 i 0)
      = if i.val = c then p else q := by
  show Scalar.select (IntOp.cmpi .eq (iota .tc Col 32 [0] hi (ix2 i 0)) (BitVec.ofNat 32 c)) p q = _
  rw [iota_single_apply]
  show (if BitVec.ofBool (BitVec.ofNat 32 i.val == BitVec.ofNat 32 c) = 1 then p else q) = _
  have hi32 : i.val < 2 ^ 32 := by have := i.isLt; omega
  have hc32 : c < 2 ^ 32 := by omega
  by_cases h : i.val = c
  · rw [if_pos h, if_pos (by rw [h]; simp)]
  · rw [if_neg h, if_neg (by
      have hne : ¬ BitVec.ofNat 32 i.val = BitVec.ofNat 32 c := fun hh => h ((ofNat_eq_iff hi32 hc32).1 hh)
      have hb : (BitVec.ofNat 32 i.val == BitVec.ofNat 32 c) = false := beq_eq_false_iff_ne.2 hne
      rw [hb]; decide)]

/-- A row edge vector: `p` at column `c`, `q` elsewhere. -/
theorem edge_row {γ : Type} (c : ℕ) (hc : c < 1024) (p q : γ) (hi : Row.Iotas .tc 32 [1]) (j : Fin 1024) :
    select (cmpi .eq (iota .tc Row 32 [1] hi) (broadcast Row (BitVec.ofNat 32 c))) (broadcast Row p) (broadcast Row q) (ix2 0 j)
      = if j.val = c then p else q := by
  show Scalar.select (IntOp.cmpi .eq (iota .tc Row 32 [1] hi (ix2 0 j)) (BitVec.ofNat 32 c)) p q = _
  rw [iota_single_apply]
  show (if BitVec.ofBool (BitVec.ofNat 32 j.val == BitVec.ofNat 32 c) = 1 then p else q) = _
  have hj32 : j.val < 2 ^ 32 := by have := j.isLt; omega
  have hc32 : c < 2 ^ 32 := by omega
  by_cases h : j.val = c
  · rw [if_pos h, if_pos (by rw [h]; simp)]
  · rw [if_neg h, if_neg (by
      have hne : ¬ BitVec.ofNat 32 j.val = BitVec.ofNat 32 c := fun hh => h ((ofNat_eq_iff hj32 hc32).1 hh)
      have hb : (BitVec.ofNat 32 j.val == BitVec.ofNat 32 c) = false := beq_eq_false_iff_ne.2 hne
      rw [hb]; decide)]

end RollPool
-- ==== Proof.LibBit1.lean ====
/-
  One-bit words: the two values, and how a few word operations act on them.

  A mask element is a word of one bit. Widened to 32 bits it is the word 0 or the word 1, and on such words the signed
  maximum is the bitwise or, a product with 1 is the word and with 0 is 0, and "greater than zero" reads the bit back.
  As an extended real a bit is 0 or 1, so it is at most 0 exactly when it is clear. Each fact is checked on the two values.
-/
import Idealize.ShloMosaic.PureOps.Ideal
import Idealize.ShloMosaic.Lib.ValueIdx

namespace Bit1

open Idealize.ShloMosaic

/-- A one-bit word is 0 or 1. -/
theorem cases (b : BitVec 1) : b = 0#1 ∨ b = 1#1 := by
  by_cases h : b = 1#1
  · exact Or.inr h
  · exact Or.inl (ValueIdx.eq_zero_of_ne_one h)

theorem or_eq_zero (a b : BitVec 1) : (a ||| b) = 0#1 ↔ a = 0#1 ∧ b = 0#1 := by
  rcases cases a with rfl | rfl <;> rcases cases b with rfl | rfl <;> decide

/-- Exclusive or with the set bit is the complement. -/
theorem xor_one (b : BitVec 1) : b ^^^ 1#1 = ~~~b := by
  rcases cases b with rfl | rfl <;> decide

/-- On widened bits the signed maximum is the or. -/
theorem maxsi_widen (a b : BitVec 1) :
    IntOp.maxsi (a.setWidth 32) (b.setWidth 32) = (a ||| b).setWidth 32 := by
  rcases cases a with rfl | rfl <;> rcases cases b with rfl | rfl <;> decide

theorem widen_zero : (0#1 : BitVec 1).setWidth 32 = 0#32 := by decide

/-- A widened bit is positive exactly when it is set. -/
theorem sgt_zero_widen (b : BitVec 1) : IntOp.cmpi .sgt (b.setWidth 32) 0#32 = b := by
  rcases cases b with rfl | rfl <;> decide

/-- A product with the word 1 keeps the word; with the word 0 it is 0. -/
theorem muli_one (y : BitVec 32) : IntOp.muli y 1#32 = y := by
  show y * 1#32 = y; exact BitVec.mul_one y
theorem muli_zero (y : BitVec 32) : IntOp.muli y 0#32 = 0#32 := by
  show y * 0#32 = 0#32; exact BitVec.mul_zero

/-- A bit read as an extended real is at most 0 exactly when it is clear. -/
theorem toReal_le_zero (b : BitVec 1) : (((b.toNat : ℝ) : EReal) ≤ 0) ↔ b = 0#1 := by
  rcases cases b with rfl | rfl
  · simp
  · constructor
    · intro h
      exfalso
      have : ((1 : ℝ) : EReal) ≤ ((0 : ℝ) : EReal) := by simpa using h
      exact absurd (EReal.coe_le_coe_iff.1 this) (by norm_num)
    · intro h; exact absurd h (by decide)

end Bit1
-- ==== Proof.NmsSpec.lean ====
/-
  The specification: two rounds of 3 × 3 non-maximum suppression on one image of scores.

  An image is a 1024 × 1024 array of extended reals, a set of marks a 1024 × 1024 array of bits. With `winmax` the maximum
  over the 3 × 3 neighbourhood inside the image (written as the separable three-tap pool by `max` with padding -∞) and
  `spread` the or over the same neighbourhood (the pool by or with padding 0):

      peaks x     = (x = winmax x)                          a score that is the maximum of its neighbourhood
      damp s x    = 0 where s, x elsewhere
      round mk x  = mk ∨ (peaks (damp (spread mk) x) ∧ ¬ spread mk)
      nms x       = x where round (round (peaks x) x) x, 0 elsewhere

  Both programs are shown to compute `nms` of each image of a batch of 16 (`batch`); nothing here mentions either program.
-/
import Idealize.ShloMosaic.PureOps.Ideal
import Idealize.ShloMosaic.Lib.ValueIdx
import proofs.«143672_j86775519248474_2_alg».proof.Proof.LibPool3

noncomputable section

namespace Nms

open Idealize.ShloMosaic Idealize.ShloMosaic.ValueIdx Pool3

/-- An image of scores, and a set of marks on it. -/
abbrev Scores : Type := Fin 1024 → Fin 1024 → EReal
abbrev Marks : Type := Fin 1024 → Fin 1024 → BitVec 1

/-- The maximum over the 3 × 3 neighbourhood inside the image. -/
def winmax (x : Scores) : Scores := pool2 max ⊥ x

/-- The scores equal to their neighbourhood's maximum. -/
def peaks (x : Scores) : Marks := fun i j => Ideal.cmp .oeq (x i j) (winmax x i j)

/-- The positions with a mark in their neighbourhood. -/
def spread (mk : Marks) : Marks := pool2 (fun a b => a ||| b) 0#1 mk

/-- The scores with those in reach of a mark set to zero. -/
def damp (s : Marks) (x : Scores) : Scores := fun i j => Scalar.select (s i j) 0 (x i j)

/-- One round: the marks so far, and the peaks of the damped scores that no mark reaches. -/
def round (mk : Marks) (x : Scores) : Marks :=
  fun i j => mk i j ||| (peaks (damp (spread mk) x) i j &&& ~~~(spread mk i j))

/-- Two rounds, then the scores at the marks and zero elsewhere. -/
def nms (x : Scores) : Scores := fun i j => Scalar.select (round (round (peaks x) x) x i j) (x i j) 0

/-- A batch of 16 images with a trailing unit channel axis, and `nms` of each image of the batch. -/
abbrev Batch : Type := (⟨4, ![16, 1024, 1024, 1]⟩ : Shape).Idx → EReal

def batch (x : Batch) : Batch := fun y => nms (fun i j => x (ix4 (y 0) i j 0)) (y 1) (y 2)

end Nms

end
-- ==== Proof.Consts.lean ====
/-
  The two float literals of the programs, as extended reals: the pattern 0xFF800000 is -∞ and the pattern 0 is 0.
  (Both programs use exactly these two; they are unfolded here once.)
-/
import Idealize.ShloMosaic.PureOps.Ideal
import Idealize.ShloMosaic.PureOps.Ideal.Laws

namespace Nms.Consts

open Idealize.ShloMosaic

theorem ninf_bits : Ideal.ofBits .f32 0xFF800000#32 = (⊥ : EReal) := by simp [Ideal.ofBits, Ideal.ieee]

theorem zero_bits : Ideal.ofBits .f32 0x00000000#32 = (0 : EReal) := Ideal.ofBits_zero_f32

end Nms.Consts
-- ==== Proof.KernelBody.lean ====
/-
  The kernel's body, read at an index: what one grid point computes of its image.

  The body loads one 1024 × 1024 image `a` and computes on whole vectors. Its 3 × 3 maximum is the arrangement of
  LibRollPool with `f = max`, `g = (+)` and edge vectors that are -∞ on the image's border row or column and 0 elsewhere:
  adding -∞ to the wrapped entry gives -∞, the padding element of `max`, and adding 0 changes nothing (both hold for every
  extended real, so no finiteness is used). Its "a mark is in reach" test is the same arrangement on 32-bit words with
  `f` the signed maximum, `g` the product and edge vectors that are 0 on the border and 1 elsewhere, applied to the
  marks widened to words and followed by "> 0": on widened bits the signed maximum is the or, so this is the or over the
  neighbourhood (LibBit1). With these two read, the body's result is, index by index, the specification `Nms.nms` of the
  image (`kout_img`), and the printed payload is the composition of the stages named here (`out_eq`, by unfolding).
-/
import proofs.«143672_j86775519248474_2_alg».proof.Proof.Gen.KernelIdeal.Frame
import proofs.«143672_j86775519248474_2_alg».proof.Proof.LibRollPool
import proofs.«143672_j86775519248474_2_alg».proof.Proof.LibBit1
import proofs.«143672_j86775519248474_2_alg».proof.Proof.NmsSpec
import proofs.«143672_j86775519248474_2_alg».proof.Proof.Consts

noncomputable section

namespace Cert.KernelIdeal.Body

open Cert.KernelIdeal Cert.KernelIdeal.Gen Idealize.ShloMosaic Idealize.ShloMosaic.ValueIdx RollPool Pool3

/-- An image as a vector of the kernel, and a vector of one-bit marks. -/
abbrev FImg : Type := FVec Ideal S1024x1024 .f32
abbrev MImg : Type := IVec S1024x1024 1

/-- The vector's entries as an image of the specification, and a mark vector's as its marks. -/
def img (a : FImg) : Nms.Scores := fun i j => a (ix2 i j)
def marks (mk : MImg) : Nms.Marks := fun i j => mk (ix2 i j)

/-! ## The edge vectors -/

theorem top_f (i : Fin 1024) (y : EReal) :
    FloatOps.addf (F := Ideal) y (k0_pay3 (F := Ideal) (ix2 i 0)) = if i.val = 0 then ⊥ else y := by
  have e : k0_pay3 (F := Ideal) (ix2 i 0) = if i.val = 0 then Ideal.ofBits .f32 0xFF800000#32 else Ideal.ofBits .f32 0x00000000#32 :=
    edge_col 0 (by decide) _ _ _ i
  show y + _ = _
  rw [e, Nms.Consts.ninf_bits, Nms.Consts.zero_bits]
  by_cases h : i.val = 0
  · rw [if_pos h, if_pos h, EReal.add_bot]
  · rw [if_neg h, if_neg h, add_zero]

theorem bot_f (i : Fin 1024) (y : EReal) :
    FloatOps.addf (F := Ideal) y (k0_pay4 (F := Ideal) (ix2 i 0)) = if i.val + 1 < 1024 then y else ⊥ := by
  have e : k0_pay4 (F := Ideal) (ix2 i 0) = if i.val = 1023 then Ideal.ofBits .f32 0xFF800000#32 else Ideal.ofBits .f32 0x00000000#32 :=
    edge_col 1023 (by decide) _ _ _ i
  show y + _ = _
  rw [e, Nms.Consts.ninf_bits, Nms.Consts.zero_bits]
  by_cases h : i.val = 1023
  · rw [if_pos h, if_neg (by omega), EReal.add_bot]
  · rw [if_neg h, if_pos (by have := i.isLt; omega), add_zero]

theorem left_f (j : Fin 1024) (y : EReal) :
    FloatOps.addf (F := Ideal) y (k0_pay5 (F := Ideal) (ix2 0 j)) = if j.val = 0 then ⊥ else y := by
  have e : k0_pay5 (F := Ideal) (ix2 0 j) = if j.val = 0 then Ideal.ofBits .f32 0xFF800000#32 else Ideal.ofBits .f32 0x00000000#32 :=
    edge_row 0 (by decide) _ _ _ j
  show y + _ = _
  rw [e, Nms.Consts.ninf_bits, Nms.Consts.zero_bits]
  by_cases h : j.val = 0
  · rw [if_pos h, if_pos h, EReal.add_bot]
  · rw [if_neg h, if_neg h, add_zero]

theorem right_f (j : Fin 1024) (y : EReal) :
    FloatOps.addf (F := Ideal) y (k0_pay6 (F := Ideal) (ix2 0 j)) = if j.val + 1 < 1024 then y else ⊥ := by
  have e : k0_pay6 (F := Ideal) (ix2 0 j) = if j.val = 1023 then Ideal.ofBits .f32 0xFF800000#32 else Ideal.ofBits .f32 0x00000000#32 :=
    edge_row 1023 (by decide) _ _ _ j
  show y + _ = _
  rw [e, Nms.Consts.ninf_bits, Nms.Consts.zero_bits]
  by_cases h : j.val = 1023
  · rw [if_pos h, if_neg (by omega), EReal.add_bot]
  · rw [if_neg h, if_pos (by have := j.isLt; omega), add_zero]

theorem top_i (i : Fin 1024) (y : BitVec 32) :
    IntOp.muli y (k0_pay7 (ix2 i 0)) = if i.val = 0 then 0#32 else y := by
  have e : k0_pay7 (ix2 i 0) = if i.val = 0 then 0#32 else 1#32 := edge_col 0 (by decide) _ _ _ i
  rw [e]
  by_cases h : i.val = 0
  · rw [if_pos h, if_pos h, Bit1.muli_zero]
  · rw [if_neg h, if_neg h, Bit1.muli_one]

theorem bot_i (i : Fin 1024) (y : BitVec 32) :
    IntOp.muli y (k0_pay8 (ix2 i 0)) = if i.val + 1 < 1024 then y else 0#32 := by
  have e : k0_pay8 (ix2 i 0) = if i.val = 1023 then 0#32 else 1#32 := edge_col 1023 (by decide) _ _ _ i
  rw [e]
  by_cases h : i.val = 1023
  · rw [if_pos h, if_neg (by omega), Bit1.muli_zero]
  · rw [if_neg h, if_pos (by have := i.isLt; omega), Bit1.muli_one]

theorem left_i (j : Fin 1024) (y : BitVec 32) :
    IntOp.muli y (k0_pay10 k0_pay9 0#32 (ix2 0 j)) = if j.val = 0 then 0#32 else y := by
  have e : k0_pay10 k0_pay9 0#32 (ix2 0 j) = if j.val = 0 then 0#32 else 1#32 := edge_row 0 (by decide) _ _ _ j
  rw [e]
  by_cases h : j.val = 0
  · rw [if_pos h, if_pos h, Bit1.muli_zero]
  · rw [if_neg h, if_neg h, Bit1.muli_one]

theorem right_i (j : Fin 1024) (y : BitVec 32) :
    IntOp.muli y (k0_pay11 (iota .tc S1x1024 32 [1] iota_S1x1024_d1_w32) (ix2 0 j)) = if j.val + 1 < 1024 then y else 0#32 := by
  have e : k0_pay11 (iota .tc S1x1024 32 [1] iota_S1x1024_d1_w32) (ix2 0 j) = if j.val = 1023 then 0#32 else 1#32 :=
    edge_row 1023 (by decide) _ _ _ j
  rw [e]
  by_cases h : j.val = 1023
  · rw [if_pos h, if_neg (by omega), Bit1.muli_zero]
  · rw [if_neg h, if_pos (by have := j.isLt; omega), Bit1.muli_one]

/-! ## The body's stages, on whole vectors -/

/-- The 3 × 3 maximum as the body computes it. -/
def kmax (a : FImg) : FImg :=
  rolled (FloatOps.maximumf (F := Ideal)) (FloatOps.addf (F := Ideal)) (k0_pay3 (F := Ideal)) (k0_pay4 (F := Ideal))
    (k0_pay5 (F := Ideal)) (k0_pay6 (F := Ideal)) rotates_S1024x1024_d0 rotates_S1024x1024_d1
    broadcasts_S1024x1_S1024x1024 broadcasts_S1x1024_S1024x1024 a

/-- The 3 × 3 maximum of words as the body computes it. -/
def kor (w : IVec S1024x1024 32) : IVec S1024x1024 32 :=
  rolled IntOp.maxsi IntOp.muli k0_pay7 k0_pay8 (k0_pay10 k0_pay9 0#32) (k0_pay11 (iota .tc S1x1024 32 [1] iota_S1x1024_d1_w32))
    rotates_S1024x1024_d0 rotates_S1024x1024_d1 broadcasts_S1024x1_S1024x1024 broadcasts_S1x1024_S1024x1024 w

def kpeaks (a : FImg) : MImg := cmpf .oeq a (kmax a)

def kspread (mk : MImg) : MImg := cmpi .sgt (kor (extui 32 mk natLt_1_32)) (broadcast S1024x1024 0#32)

def kdamp (s : MImg) (a : FImg) : FImg :=
  select s (broadcast S1024x1024 (Scalar.ofBits (F := Ideal) .f32 0x00000000#32)) a

def kround (mk : MImg) (a : FImg) : MImg :=
  ori mk (andi (kpeaks (kdamp (kspread mk) a)) (xori (kspread mk) (constantI S1024x1024 1 1#1)))

def kout (a : FImg) : FImg :=
  select (kround (kround (kpeaks a) a) a) a (broadcast S1024x1024 (Scalar.ofBits (F := Ideal) .f32 0x00000000#32))

/-! ## The stages at an index are the specification's -/

theorem kmax_img (a : FImg) : img (kmax a) = Nms.winmax (img a) := by
  funext i j
  have r := rolled_apply (FloatOps.maximumf (F := Ideal) (φ := .f32)) (FloatOps.addf (F := Ideal) (φ := .f32)) ⊥
    (k0_pay3 (F := Ideal)) (k0_pay4 (F := Ideal)) (k0_pay5 (F := Ideal)) (k0_pay6 (F := Ideal))
    rotates_S1024x1024_d0 rotates_S1024x1024_d1 broadcasts_S1024x1_S1024x1024 broadcasts_S1x1024_S1024x1024
    top_f bot_f left_f right_f a i j
  exact r

theorem kpeaks_marks (a : FImg) : marks (kpeaks a) = Nms.peaks (img a) := by
  funext i j
  show Ideal.cmp .oeq (a (ix2 i j)) (kmax a (ix2 i j)) = Ideal.cmp .oeq (img a i j) (Nms.winmax (img a) i j)
  rw [← kmax_img]
  rfl

theorem kspread_marks (mk : MImg) : marks (kspread mk) = Nms.spread (marks mk) := by
  funext i j
  have r := rolled_apply IntOp.maxsi IntOp.muli 0#32 k0_pay7 k0_pay8 (k0_pay10 k0_pay9 0#32)
    (k0_pay11 (iota .tc S1x1024 32 [1] iota_S1x1024_d1_w32)) rotates_S1024x1024_d0 rotates_S1024x1024_d1
    broadcasts_S1024x1_S1024x1024 broadcasts_S1x1024_S1024x1024 top_i bot_i left_i right_i (extui 32 mk natLt_1_32) i j
  have e := pool2_map IntOp.maxsi (fun a b : BitVec 1 => a ||| b) (fun b : BitVec 1 => b.setWidth 32)
    (fun x y => (Bit1.maxsi_widen x y).symm) Bit1.widen_zero (marks mk) i j
  have key : kor (extui 32 mk natLt_1_32) (ix2 i j) = (Nms.spread (marks mk) i j).setWidth 32 := r.trans e.symm
  show IntOp.cmpi .sgt (kor (extui 32 mk natLt_1_32) (ix2 i j)) 0#32 = Nms.spread (marks mk) i j
  rw [key]
  exact Bit1.sgt_zero_widen _

theorem kdamp_img (s : MImg) (a : FImg) : img (kdamp s a) = Nms.damp (marks s) (img a) := by
  funext i j
  show Scalar.select (s (ix2 i j)) (Ideal.ofBits .f32 0x00000000#32) (a (ix2 i j)) = Scalar.select (s (ix2 i j)) 0 (a (ix2 i j))
  rw [Nms.Consts.zero_bits]

theorem kround_marks (mk : MImg) (a : FImg) : marks (kround mk a) = Nms.round (marks mk) (img a) := by
  funext i j
  have h1 : kpeaks (kdamp (kspread mk) a) (ix2 i j) = Nms.peaks (Nms.damp (Nms.spread (marks mk)) (img a)) i j := by
    have := congrFun (congrFun (kpeaks_marks (kdamp (kspread mk) a)) i) j
    rw [kdamp_img, kspread_marks] at this
    exact this
  have h2 : kspread mk (ix2 i j) = Nms.spread (marks mk) i j := congrFun (congrFun (kspread_marks mk) i) j
  show mk (ix2 i j) ||| (kpeaks (kdamp (kspread mk) a) (ix2 i j) &&& (kspread mk (ix2 i j) ^^^ 1#1))
    = marks mk i j ||| (Nms.peaks (Nms.damp (Nms.spread (marks mk)) (img a)) i j &&& ~~~(Nms.spread (marks mk) i j))
  rw [h1, h2, Bit1.xor_one]
  rfl

/-- THE BODY'S RESULT, index by index, is the specification of the image it loaded. -/
theorem kout_img (a : FImg) : img (kout a) = Nms.nms (img a) := by
  funext i j
  have h : kround (kround (kpeaks a) a) a (ix2 i j) = Nms.round (Nms.round (Nms.peaks (img a)) (img a)) (img a) i j := by
    have := congrFun (congrFun (kround_marks (kround (kpeaks a) a) a) i) j
    rw [kround_marks (kpeaks a) a, kpeaks_marks] at this
    exact this
  show Scalar.select (kround (kround (kpeaks a) a) a (ix2 i j)) (a (ix2 i j)) (Ideal.ofBits .f32 0x00000000#32)
    = Scalar.select (Nms.round (Nms.round (Nms.peaks (img a)) (img a)) (img a) i j) (img a i j) 0
  rw [h, Nms.Consts.zero_bits]
  rfl

/-! ## The printed payload is that composition -/

theorem hz3 : (![0, 0, 0] : Fin 3 → Nat) = fun _ => 0 := funext fun a => by fin_cases a <;> rfl

set_option maxRecDepth 65536 in
/-- What the body leaves in the output's staging buffer, from the block it loaded: the stages above composed, between the
    two shape casts that drop and restore the block's leading unit axis. -/
theorem out_eq (x0 : Vec Ideal S1x1024x1024 .f32) :
    out0_1 (F := Ideal) x0
      = shapeCast S1x1024x1024 (kout (shapeCast S1024x1024 x0 shapeCasts_S1x1024x1024_S1024x1024)) shapeCasts_S1024x1024_S1x1024x1024 := by
  unfold out0_1
  rw [View.canon_unit_zero hz3]
  simp only [View.ld_unit_zero (S := S1x1024x1024) hz3]
  rfl

end Cert.KernelIdeal.Body

end
-- ==== Proof.KernelValue.lean ====
/-
  The kernel program's result: from what each grid point writes back to the whole result array.

  The program reshapes the batch [16, 1024, 1024, 1] to [16, 1024, 1024], runs the body once per image — grid point `t`
  loads block `t` of the reshaped batch, which is image `t` whole, and writes block `t` of the output array, again image
  `t` whole — and reshapes the output back. A reshape keeps the row-major position, and the trailing unit axis does not
  change it, so entry `(b, i, j)` of the middle arrays is entry `(b, i, j, 0)` of the outer ones.

  What point `t` writes back is block `t` of one function of the input array, "the specification of image `y 0` at
  `(y 1, y 2)`" (`perImage`; `flushed_eq`, from the body's result index by index, KernelBody). The sixteen blocks cover the
  output array (point `b` covers image `b`), so the array ends holding that function (`final`), and after the closing
  reshape the result buffer holds `Nms.batch` of the argument (`run`).
-/
import proofs.«143672_j86775519248474_2_alg».proof.Proof.KernelBody
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## One block -/

/-- The body's result on a loaded block `X0` (one image under a leading unit axis), at a block index: the specification
    of that image. -/
theorem block_apply (X0 : Vec Ideal S1x1024x1024 .f32) (y : S1x1024x1024.Idx) :
    shapeCast S1x1024x1024 (kout (shapeCast S1024x1024 X0 shapeCasts_S1x1024x1024_S1024x1024)) shapeCasts_S1024x1024_S1x1024x1024 y
      = Nms.nms (fun i' j' => X0 (ix3 0 i' j')) (y 1) (y 2) := by
  obtain ⟨u, i, j, rfl⟩ : ∃ (u : Fin 1) (i : Fin 1024) (j : Fin 1024), y = ix3 u i j := ⟨y 0, y 1, y 2, eq_ix3 y⟩
  have hu : u = 0 := Subsingleton.elim _ _
  subst hu
  rw [shapeCast_apply _ shapeCasts_S1024x1024_S1x1024x1024 (ix3 0 i j) (ix2 i j) (by
    rw [Shape.rowMajor_val_two, Shape.rowMajor_val_three]
    show i.val * 1024 + j.val = (0 * 1024 + i.val) * 1024 + j.val
    omega)]
  have h := congrFun (congrFun (kout_img (shapeCast S1024x1024 X0 shapeCasts_S1x1024x1024_S1024x1024)) i) j
  have himg : img (shapeCast S1024x1024 X0 shapeCasts_S1x1024x1024_S1024x1024) = fun i' j' => X0 (ix3 0 i' j') := by
    funext i' j'
    exact shapeCast_apply X0 shapeCasts_S1x1024x1024_S1024x1024 (ix2 i' j') (ix3 0 i' j') (by
      rw [Shape.rowMajor_val_two, Shape.rowMajor_val_three]
      show (0 * 1024 + i'.val) * 1024 + j'.val = i'.val * 1024 + j'.val
      omega)
  rw [himg] at h
  exact h

/-! ## The array the body's blocks are blocks of -/

/-- The specification applied image by image to an array [16, 1024, 1024]. -/
def perImage (X : S16x1024x1024.Idx → EReal) : S16x1024x1024.Idx → EReal :=
  fun y => Nms.nms (fun i' j' => X (ix3 (y 0) i' j')) (y 1) (y 2)

/-- The printed index maps, decided over the sixteen grid points: both windows are at block `t` along the batch axis and
    at block 0 along the image axes. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 15 :=
  (by decide +kernel : ∀ t : Fin grid0.N, _)

/-- Every image is some point's block. -/
theorem idx_onto : ∀ q : Fin 16, ∃ t : Fin cfg0.N, win0_1.index t (0 : Fin 3) = q.val :=
  (by decide +kernel : ∀ q : Fin 16, ∃ t : Fin grid0.N, win0_1.index t (0 : Fin 3) = q.val)

/-- WHAT POINT `t` WRITES BACK is block `t` of the specification applied image by image to the input array as the region
    finds it. -/
theorem flushed_eq (c : Dev nD) (t : Fin cfg0.N) :
    (dats m 0 c).flushed 1 t = ((cfg0.win 1).blk t).view.read (Elt Ideal) (perImage (V m c main_v0)) := by
  show (cfg0.win 1).cut (grid0.coords t) ((dats m 0 c).after 1 t) = _
  rw [after0_1, out_eq]
  obtain ⟨e0, e1, e2, e3, e4, e5⟩ := idx_facts t
  funext y
  show shapeCast S1x1024x1024 (kout (shapeCast S1024x1024 (iblk m c 0 t) shapeCasts_S1x1024x1024_S1024x1024)) shapeCasts_S1024x1024_S1x1024x1024 y
    = perImage (V m c main_v0) (((cfg0.win 1).blk t).view.emb y)
  refine (block_apply (iblk m c 0 t) y).trans ?_
  unfold perImage
  have hy0 : (y 0).val < 1 := (y 0).isLt
  have h1 : (((cfg0.win 1).blk t).view.emb y) 1 = y 1 := Fin.ext (by
    show win0_1.index t (1 : Fin 3) * 1024 + 1 * (y 1).val = (y 1).val
    omega)
  have h2 : (((cfg0.win 1).blk t).view.emb y) 2 = y 2 := Fin.ext (by
    show win0_1.index t (2 : Fin 3) * 1024 + 1 * (y 2).val = (y 2).val
    omega)
  have himg : (fun i' j' => iblk m c 0 t (ix3 0 i' j'))
      = fun i' j' => V m c main_v0 (ix3 ((((cfg0.win 1).blk t).view.emb y) 0) i' j') := by
    funext i' j'
    show V m c main_v0 (((cfg0.win 0).blk t).view.emb (ix3 0 i' j')) = V m c main_v0 (ix3 ((((cfg0.win 1).blk t).view.emb y) 0) i' j')
    refine congrArg (V m c main_v0) (funext fun a => Fin.ext ?_)
    match a with
    | ⟨0, _⟩ =>
      show win0_0.index t (0 : Fin 3) * 1 + 1 * 0 = win0_1.index t (0 : Fin 3) * 1 + 1 * (y 0).val
      omega
    | ⟨1, _⟩ =>
      show win0_0.index t (1 : Fin 3) * 1024 + 1 * i'.val = i'.val
      omega
    | ⟨2, _⟩ =>
      show win0_0.index t (2 : Fin 3) * 1024 + 1 * j'.val = j'.val
      omega
  rw [himg, h1, h2]

/-- An index of the output array is in point `t`'s block iff each coordinate is in the block's range on its axis. -/
theorem mem_blk (t : Fin cfg0.N) (i : S16x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v1).slice (win0_1.rect t)).set ↔ _
  rw [View.set_slice_whole, Rect.mem_set_unit]
  exact Iff.rfl

/-- The sixteen blocks cover the output array: image `b` is point `b`'s block. -/
theorem cover (i : S16x1024x1024.Idx) :
    ∃ t : Fin cfg0.N, (cfg0.win 1).flush t = true ∧ i ∈ ((cfg0.win 1).blk t).view.set := by
  obtain ⟨t, ht⟩ := idx_onto (i 0)
  obtain ⟨e0, e1, e2, e3, e4, e5⟩ := idx_facts t
  refine ⟨t, flush0_1 t, ?_⟩
  rw [mem_blk]
  intro a
  have hi1 : (i 1).val < 1024 := (i 1).isLt
  have hi2 : (i 2).val < 1024 := (i 2).isLt
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 1024 ≤ (i 1).val ∧ (i 1).val < win0_1.index t (1 : Fin 3) * 1024 + 1024
    omega
  | ⟨2, _⟩ =>
    show win0_1.index t (2 : Fin 3) * 1024 ≤ (i 2).val ∧ (i 2).val < win0_1.index t (2 : Fin 3) * 1024 + 1024
    omega

/-- THE OUTPUT ARRAY after the region. -/
theorem final (c : Dev nD) : (dats m 0 c).arrAt 1 cfg0.N = perImage (V m c main_v0) :=
  (dats m 0 c).arrAt_eq_of_cover 1 (perImage (V m c main_v0)) (fun t _ => flushed_eq m c t) cover

/-! ## The reshapes around the region -/

/-- The region's input array is the argument reshaped. -/
theorem V_main_v0 (c : Dev nD) :
    (V m c main_v0 : S16x1024x1024.Idx → EReal)
      = shapeCast S16x1024x1024 (m ((c : Thread nD τ).loc main_arg0)) shapeCasts_S16x1024x1024x1_S16x1024x1024 := by
  show StableHlo.after hostOps0 (fun b => m (c, b)) (Proc.devRef .tc main_v0) = _
  after_results
  rfl

/-- The specification image by image of the reshaped batch, reshaped back, is the specification of the batch. -/
theorem reshape_perImage (x : Nms.Batch) :
    shapeCast S16x1024x1024x1 (perImage (shapeCast S16x1024x1024 x shapeCasts_S16x1024x1024x1_S16x1024x1024))
      shapeCasts_S16x1024x1024_S16x1024x1024x1 = Nms.batch x := by
  funext y
  obtain ⟨b, i, j, u, rfl⟩ : ∃ (b : Fin 16) (i : Fin 1024) (j : Fin 1024) (u : Fin 1), y = ix4 b i j u :=
    ⟨y 0, y 1, y 2, y 3, eq_ix4 y⟩
  have hu : u = 0 := Subsingleton.elim _ _
  subst hu
  rw [shapeCast_apply _ shapeCasts_S16x1024x1024_S16x1024x1024x1 (ix4 b i j 0) (ix3 b i j) (by
    rw [Shape.rowMajor_val_three, Shape.rowMajor_val_four]
    show (b.val * 1024 + i.val) * 1024 + j.val = ((b.val * 1024 + i.val) * 1024 + j.val) * 1 + 0
    omega)]
  show Nms.nms (fun i' j' => shapeCast S16x1024x1024 x shapeCasts_S16x1024x1024x1_S16x1024x1024 (ix3 b i' j')) i j
    = Nms.nms (fun i' j' => x (ix4 b i' j' 0)) i j
  refine congrArg (fun X => Nms.nms X i j) (funext fun i' => funext fun j' => ?_)
  exact shapeCast_apply x shapeCasts_S16x1024x1024x1_S16x1024x1024 (ix3 b i' j') (ix4 b i' j' 0) (by
    rw [Shape.rowMajor_val_three, Shape.rowMajor_val_four]
    show ((b.val * 1024 + i'.val) * 1024 + j'.val) * 1 + 0 = (b.val * 1024 + i'.val) * 1024 + j'.val
    omega)

/-- The result buffer after the closing reshape. -/
theorem tail_value (c : Dev nD) :
    Pipeline.afterTail₀ cfgs (dats m) 0 (V0 m) [hostOps1] c main_v2 = Nms.batch (m ((c : Thread nD τ).loc main_arg0)) := by
  unfold Pipeline.afterTail₀
  show StableHlo.after hostOps1 _ (Proc.devRef .tc main_v2) = _
  after_results
  rw [Pipeline.withArrays_arr spec0 launch0.win.arr_inj c _ _ 1, final, V_main_v0]
  exact reshape_perImage _

/-! ## The run -/

/-- Every weakly fair execution of the kernel program terminates with the result buffer at the specification of the
    argument batch and the argument unchanged. -/
theorem run : θ_run defs (onTc (τ := τ) (main (F := Ideal))) ⟨m, fun _ => 0, ρ⟩ fun r => ∀ c : Dev nD,
      r.2.mem ((c : Thread nD τ).loc main_v2) = Nms.batch (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_value m c),
       ((h c).2 main_arg0 (Pipeline.mem_restRefs_of main_arg0 (by decide) (by decide))).trans (W_main_arg0 m (dats m) c)⟩)
    (run_main m ρ)

end Cert.KernelIdeal.KValue

end
-- ==== Proof.RefRun.lean ====
/-
  The reference program run, and its result as a composition of named stages.

  The reference computes, on a batch of 16 images of 1024 × 1024 scores (a trailing unit channel axis),
  two rounds of non-maximum suppression:

      peaks x        = (x == winmax x)                       -- a score equal to the maximum of its 3 × 3 window
      spread mk      = (winmax (float mk) > 0)               -- some entry of the window is marked
      damp s x       = where s, 0, x                         -- scores in reach of a mark are zeroed
      round mk x     = mk | (peaks (damp (spread mk) x) & ~ spread mk)
      result x       = where (round (round (peaks x) x) x), x, 0

  where `winmax` is the 3 × 3 window maximum with -∞ padding (stride one, SAME). Every weakly fair execution of the
  program terminates with its result buffer holding `result` of the argument and the argument unchanged (`run`):
  the program is a straight line of host operations, so this is the library's run of an operation list, and the
  composed term the run leaves is `result` by unfolding the stages.
-/
import proofs.«143672_j86775519248474_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- A batch of score images, and a batch of one-bit masks. -/
abbrev Arr (F : FTy → Type) : Type := (⟨S16x1024x1024x1, .f32⟩ : BufTy).Contents (Elt F)
abbrev Msk (F : FTy → Type) : Type := (⟨S16x1024x1024x1, .i1⟩ : BufTy).Contents (Elt F)

/-- The window reduction's initial value and padding: -∞. -/
def ninf : (⟨S_, .f32⟩ : BufTy).Contents (Elt F) := broadcastInDim S_ ![] bcast_S_S_ (constant (F := F) S_ .f32 0xFF800000#32)

/-- The zero image. -/
def zeros : Arr F := broadcastInDim S16x1024x1024x1 ![] bcast_S_S16x1024x1024x1 (constant (F := F) S_ .f32 0x00000000#32)

/-- The 3 × 3 window maximum, -∞ outside the image. -/
def winmax (x : Arr F) : Arr F :=
  Host.reduceWindow (FloatOps.maximumf (F := F)) ![1, 3, 3, 1] ![1, 1, 1, 1] ![0, 1, 1, 0] ![0, 1, 1, 0] x (ninf (F := F))
    reduceWindows_S16x1024x1024x1_S16x1024x1024x1_w1s1p0_0_w3s1p1_1_w3s1p1_1_w1s1p0_0 h_S_

/-- The scores that equal their window's maximum. -/
def peaks (x : Arr F) : Msk F := cmpf (F := F) .oeq x (winmax x)

/-- The positions with a marked entry in their window. -/
def spread (mk : Msk F) : Msk F := cmpf (F := F) .ogt (winmax (F := F) (uitofp (F := F) .f32 mk)) (zeros (F := F))

/-- The scores with those in reach of a mark zeroed. -/
def damp (s : Msk F) (x : Arr F) : Arr F := select s (zeros (F := F)) x

/-- One round: the marks so far, and the peaks of the damped scores out of reach of a mark. -/
def round (mk : Msk F) (x : Arr F) : Msk F :=
  ori mk (andi (peaks (F := F) (damp (F := F) (spread (F := F) mk) x)) (noti (spread (F := F) mk)))

/-- The result: the scores at the marks after two rounds, zero elsewhere. -/
def result (x : Arr F) : Arr F := select (round (F := F) (round (F := F) (peaks (F := F) x) x) x) x (zeros (F := F))

/-! ## The run -/

/-- The reference's 37 host operations, in program order; the three selects that jnp.where outlines stand at their calls. -/
abbrev ops : List (HloOp τ sig (Elt F)) :=
  [ nullary main_cst (constant S_ .f32 0x00000000#32),
    unary main_cst main_v0 (broadcastInDim S16x1024x1024x1 ![] bcast_S_S16x1024x1024x1 : (⟨S_, .f32⟩ : BufTy).Contents (Elt F) → (⟨S16x1024x1024x1, .f32⟩ : BufTy).Contents (Elt F)),
    nullary main_cst_0 (constant S_ .f32 0xFF800000#32),
    unary main_cst_0 main_v1 (broadcastInDim S_ ![] bcast_S_S_ : (⟨S_, .f32⟩ : BufTy).Contents (Elt F) → (⟨S_, .f32⟩ : BufTy).Contents (Elt F)),
    binary main_arg0 main_v1 main_v2 ((fun x v => Host.reduceWindow FloatOps.maximumf ![1, 3, 3, 1] ![1, 1, 1, 1] ![0, 1, 1, 0] ![0, 1, 1, 0] x v reduceWindows_S16x1024x1024x1_S16x1024x1024x1_w1s1p0_0_w3s1p1_1_w3s1p1_1_w1s1p0_0 h_S_) : (⟨S16x1024x1024x1, .f32⟩ : BufTy).Contents (Elt F) → (⟨S_, .f32⟩ : BufTy).Contents (Elt F) → (⟨S16x1024x1024x1, .f32⟩ : BufTy).Contents (Elt F)),
    binary main_arg0 main_v2 main_v3 (cmpf .oeq : (⟨S16x1024x1024x1, .f32⟩ : BufTy).Contents (Elt F) → (⟨S16x1024x1024x1, .f32⟩ : BufTy).Contents (Elt F) → (⟨S16x1024x1024x1, .i1⟩ : BufTy).Contents (Elt F)),
    unary main_v3 main_v4 (uitofp .f32 : (⟨S16x1024x1024x1, .i1⟩ : BufTy).Contents (Elt F) → (⟨S16x1024x1024x1, .f32⟩ : BufTy).Contents (Elt F)),
    nullary main_cst_1 (constant S_ .f32 0xFF800000#32),
    unary main_cst_1 main_v5 (broadcastInDim S_ ![] bcast_S_S_ : (⟨S_, .f32⟩ : BufTy).Contents (Elt F) → (⟨S_, .f32⟩ : BufTy).Contents (Elt F)),
    binary main_v4 main_v5 main_v6 ((fun x v => Host.reduceWindow FloatOps.maximumf ![1, 3, 3, 1] ![1, 1, 1, 1] ![0, 1, 1, 0] ![0, 1, 1, 0] x v reduceWindows_S16x1024x1024x1_S16x1024x1024x1_w1s1p0_0_w3s1p1_1_w3s1p1_1_w1s1p0_0 h_S_) : (⟨S16x1024x1024x1, .f32⟩ : BufTy).Contents (Elt F) → (⟨S_, .f32⟩ : BufTy).Contents (Elt F) → (⟨S16x1024x1024x1, .f32⟩ : BufTy).Contents (Elt F)),
    nullary main_cst_2 (constant S_ .f32 0x00000000#32),
    unary main_cst_2 main_v7 (broadcastInDim S16x1024x1024x1 ![] bcast_S_S16x1024x1024x1 : (⟨S_, .f32⟩ : BufTy).Contents (Elt F) → (⟨S16x1024x1024x1, .f32⟩ : BufTy).Contents (Elt F)),
    binary main_v6 main_v7 main_v8 (cmpf .ogt : (⟨S16x1024x1024x1, .f32⟩ : BufTy).Contents (Elt F) → (⟨S16x1024x1024x1, .f32⟩ : BufTy).Contents (Elt F) → (⟨S16x1024x1024x1, .i1⟩ : BufTy).Contents (Elt F)),
    TRef.ternary (TRef.of (T := ⟨S16x1024x1024x1, .i1⟩) main_v8) (TRef.of (T := ⟨S16x1024x1024x1, .f32⟩) main_v0) (TRef.of (T := ⟨S16x1024x1024x1, .f32⟩) main_arg0) (TRef.of (T := ⟨S16x1024x1024x1, .f32⟩) main_v9) select,
    nullary main_cst_3 (constant S_ .f32 0xFF800000#32),
    unary main_cst_3 main_v10 (broadcastInDim S_ ![] bcast_S_S_ : (⟨S_, .f32⟩ : BufTy).Contents (Elt F) → (⟨S_, .f32⟩ : BufTy).Contents (Elt F)),
    binary main_v9 main_v10 main_v11 ((fun x v => Host.reduceWindow FloatOps.maximumf ![1, 3, 3, 1] ![1, 1, 1, 1] ![0, 1, 1, 0] ![0, 1, 1, 0] x v reduceWindows_S16x1024x1024x1_S16x1024x1024x1_w1s1p0_0_w3s1p1_1_w3s1p1_1_w1s1p0_0 h_S_) : (⟨S16x1024x1024x1, .f32⟩ : BufTy).Contents (Elt F) → (⟨S_, .f32⟩ : BufTy).Contents (Elt F) → (⟨S16x1024x1024x1, .f32⟩ : BufTy).Contents (Elt F)),
    binary main_v9 main_v11 main_v12 (cmpf .oeq : (⟨S16x1024x1024x1, .f32⟩ : BufTy).Contents (Elt F) → (⟨S16x1024x1024x1, .f32⟩ : BufTy).Contents (Elt F) → (⟨S16x1024x1024x1, .i1⟩ : BufTy).Contents (Elt F)),
    unary main_v8 main_v13 (noti : (⟨S16x1024x1024x1, .i1⟩ : BufTy).Contents (Elt F) → (⟨S16x1024x1024x1, .i1⟩ : BufTy).Contents (Elt F)),
    binary main_v12 main_v13 main_v14 (andi : (⟨S16x1024x1024x1, .i1⟩ : BufTy).Contents (Elt F) → (⟨S16x1024x1024x1, .i1⟩ : BufTy).Contents (Elt F) → (⟨S16x1024x1024x1, .i1⟩ : BufTy).Contents (Elt F)),
    binary main_v3 main_v14 main_v15 (ori : (⟨S16x1024x1024x1, .i1⟩ : BufTy).Contents (Elt F) → (⟨S16x1024x1024x1, .i1⟩ : BufTy).Contents (Elt F) → (⟨S16x1024x1024x1, .i1⟩ : BufTy).Contents (Elt F)),
    unary main_v15 main_v16 (uitofp .f32 : (⟨S16x1024x1024x1, .i1⟩ : BufTy).Contents (Elt F) → (⟨S16x1024x1024x1, .f32⟩ : BufTy).Contents (Elt F)),
    nullary main_cst_4 (constant S_ .f32 0xFF800000#32),
    unary main_cst_4 main_v17 (broadcastInDim S_ ![] bcast_S_S_ : (⟨S_, .f32⟩ : BufTy).Contents (Elt F) → (⟨S_, .f32⟩ : BufTy).Contents (Elt F)),
    binary main_v16 main_v17 main_v18 ((fun x v => Host.reduceWindow FloatOps.maximumf ![1, 3, 3, 1] ![1, 1, 1, 1] ![0, 1, 1, 0] ![0, 1, 1, 0] x v reduceWindows_S16x1024x1024x1_S16x1024x1024x1_w1s1p0_0_w3s1p1_1_w3s1p1_1_w1s1p0_0 h_S_) : (⟨S16x1024x1024x1, .f32⟩ : BufTy).Contents (Elt F) → (⟨S_, .f32⟩ : BufTy).Contents (Elt F) → (⟨S16x1024x1024x1, .f32⟩ : BufTy).Contents (Elt F)),
    nullary main_cst_5 (constant S_ .f32 0x00000000#32),
    unary main_cst_5 main_v19 (broadcastInDim S16x1024x1024x1 ![] bcast_S_S16x1024x1024x1 : (⟨S_, .f32⟩ : BufTy).Contents (Elt F) → (⟨S16x1024x1024x1, .f32⟩ : BufTy).Contents (Elt F)),
    binary main_v18 main_v19 main_v20 (cmpf .ogt : (⟨S16x1024x1024x1, .f32⟩ : BufTy).Contents (Elt F) → (⟨S16x1024x1024x1, .f32⟩ : BufTy).Contents (Elt F) → (⟨S16x1024x1024x1, .i1⟩ : BufTy).Contents (Elt F)),
    TRef.ternary (TRef.of (T := ⟨S16x1024x1024x1, .i1⟩) main_v20) (TRef.of (T := ⟨S16x1024x1024x1, .f32⟩) main_v0) (TRef.of (T := ⟨S16x1024x1024x1, .f32⟩) main_arg0) (TRef.of (T := ⟨S16x1024x1024x1, .f32⟩) main_v21) select,
    nullary main_cst_6 (constant S_ .f32 0xFF800000#32),
    unary main_cst_6 main_v22 (broadcastInDim S_ ![] bcast_S_S_ : (⟨S_, .f32⟩ : BufTy).Contents (Elt F) → (⟨S_, .f32⟩ : BufTy).Contents (Elt F)),
    binary main_v21 main_v22 main_v23 ((fun x v => Host.reduceWindow FloatOps.maximumf ![1, 3, 3, 1] ![1, 1, 1, 1] ![0, 1, 1, 0] ![0, 1, 1, 0] x v reduceWindows_S16x1024x1024x1_S16x1024x1024x1_w1s1p0_0_w3s1p1_1_w3s1p1_1_w1s1p0_0 h_S_) : (⟨S16x1024x1024x1, .f32⟩ : BufTy).Contents (Elt F) → (⟨S_, .f32⟩ : BufTy).Contents (Elt F) → (⟨S16x1024x1024x1, .f32⟩ : BufTy).Contents (Elt F)),
    binary main_v21 main_v23 main_v24 (cmpf .oeq : (⟨S16x1024x1024x1, .f32⟩ : BufTy).Contents (Elt F) → (⟨S16x1024x1024x1, .f32⟩ : BufTy).Contents (Elt F) → (⟨S16x1024x1024x1, .i1⟩ : BufTy).Contents (Elt F)),
    unary main_v20 main_v25 (noti : (⟨S16x1024x1024x1, .i1⟩ : BufTy).Contents (Elt F) → (⟨S16x1024x1024x1, .i1⟩ : BufTy).Contents (Elt F)),
    binary main_v24 main_v25 main_v26 (andi : (⟨S16x1024x1024x1, .i1⟩ : BufTy).Contents (Elt F) → (⟨S16x1024x1024x1, .i1⟩ : BufTy).Contents (Elt F) → (⟨S16x1024x1024x1, .i1⟩ : BufTy).Contents (Elt F)),
    binary main_v15 main_v26 main_v27 (ori : (⟨S16x1024x1024x1, .i1⟩ : BufTy).Contents (Elt F) → (⟨S16x1024x1024x1, .i1⟩ : BufTy).Contents (Elt F) → (⟨S16x1024x1024x1, .i1⟩ : BufTy).Contents (Elt F)),
    TRef.ternary (TRef.of (T := ⟨S16x1024x1024x1, .i1⟩) main_v27) (TRef.of (T := ⟨S16x1024x1024x1, .f32⟩) main_arg0) (TRef.of (T := ⟨S16x1024x1024x1, .f32⟩) main_v0) (TRef.of (T := ⟨S16x1024x1024x1, .f32⟩) main_v28) select ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., binary_bufs_sub .., unary_bufs_sub .., binary_bufs_sub .., binary_bufs_sub .., ternary_bufs_sub ..⟩

set_option maxHeartbeats 2000000 in
/-- On every device, from any memory with zero counters: every weakly fair execution of the reference terminates with
    its result buffer at `result` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = result (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v28).trans (by after_results_simp <;> rfl),
      (h c main_arg0).trans (by after_results_simp <;> rfl)⟩)
    (run_seq scopedRefs_eq scopedSems_eq defs main (fun _ => ops) main_eq (fun _ => ops_sub) m ρ)

end Cert.ReferenceIdeal.RefValue

end
-- ==== Proof.LibWindow3x3.lean ====
/-
  A 3 × 3 window reduction with one ring of padding, read through a predicate.

  `Host.reduceWindow f` over an operand of shape [B, H, W, 1] with window [1, 3, 3, 1], stride one and one position of
  padding before and after the two middle axes is, at `(b, i, j, 0)`, the left fold of `f` from the initial value over
  the nine window positions: position `(di, dj)` contributes the operand's entry at `(b, i + di - 1, j + dj - 1, 0)`
  where that lies inside the operand and the initial value where it is padding.

  For a predicate `Q` that splits over `f` (`Q (f x y) ↔ Q x ∧ Q y`) and holds of the initial value, `Q` holds of the
  window's reduction iff it holds of every entry `(b, k, l, 0)` with `k` within one of `i` and `l` within one of `j`
  (`reduceWindow_pred`): the window positions inside the operand are exactly those neighbours. This is the same
  characterisation as `Pool3.pool2_pred` gives the separable three-tap pool, so a window reduction by `max` and a
  separable pool by `max` of the same entries have the same upper bounds, hence are equal (`reduceWindow_max_eq_pool2`).
-/
import Idealize.ShloMosaic.PureOps
import Idealize.ShloMosaic.Lib.ValueIdx
import proofs.«143672_j86775519248474_2_alg».proof.Proof.LibPool3

namespace Window3x3

open Idealize.ShloMosaic Idealize.ShloMosaic.ValueIdx Pool3

variable {α : Type}

/-- A window position whose operand index lies inside the operand is a neighbour: the index it reads is
    `(b, k, l, 0)` with `k` within one of `i` and `l` within one of `j`. -/
theorem inside_near {B H W : ℕ} (e4 : (4 : ℕ) = 4) (b : Fin B) (i : Fin H) (j : Fin W) (p : (⟨4, ![1, 3, 3, 1]⟩ : Shape).Idx)
    (hin : ∀ a : Fin 4, (![0, 1, 1, 0] : Fin 4 → ℕ) a ≤ (ix4 b i j (0 : Fin 1) (Fin.cast e4 a)).val * (![1, 1, 1, 1] : Fin 4 → ℕ) a + (p a).val
      ∧ (ix4 b i j (0 : Fin 1) (Fin.cast e4 a)).val * (![1, 1, 1, 1] : Fin 4 → ℕ) a + (p a).val - (![0, 1, 1, 0] : Fin 4 → ℕ) a
          < (⟨4, ![B, H, W, 1]⟩ : Shape).size a) :
    ∃ (k : Fin H) (l : Fin W), Near k i ∧ Near l j ∧
      (fun a : Fin 4 => (⟨(ix4 b i j (0 : Fin 1) (Fin.cast e4 a)).val * (![1, 1, 1, 1] : Fin 4 → ℕ) a + (p a).val
          - (![0, 1, 1, 0] : Fin 4 → ℕ) a, (hin a).2⟩ : Fin ((⟨4, ![B, H, W, 1]⟩ : Shape).size a))) = ix4 b k l (0 : Fin 1) := by
  have q0 : (p 0).val < 1 := (p 0).isLt
  have q1 : (p 1).val < 3 := (p 1).isLt
  have q2 : (p 2).val < 3 := (p 2).isLt
  have q3 : (p 3).val < 1 := (p 3).isLt
  have h1 : 1 ≤ i.val * 1 + (p 1).val ∧ i.val * 1 + (p 1).val - 1 < H := hin 1
  have h2 : 1 ≤ j.val * 1 + (p 2).val ∧ j.val * 1 + (p 2).val - 1 < W := hin 2
  refine ⟨⟨i.val * 1 + (p 1).val - 1, h1.2⟩, ⟨j.val * 1 + (p 2).val - 1, h2.2⟩,
    ⟨by show i.val * 1 + (p 1).val - 1 ≤ i.val + 1; omega, by show i.val ≤ i.val * 1 + (p 1).val - 1 + 1; omega⟩,
    ⟨by show j.val * 1 + (p 2).val - 1 ≤ j.val + 1; omega, by show j.val ≤ j.val * 1 + (p 2).val - 1 + 1; omega⟩, ?_⟩
  funext a
  apply Fin.ext
  match a with
  | ⟨0, _⟩ => show b.val * 1 + (p 0).val - 0 = b.val; omega
  | ⟨1, _⟩ => rfl
  | ⟨2, _⟩ => rfl
  | ⟨3, _⟩ => show 0 * 1 + (p 3).val - 0 = 0; omega

/-- The predicate form of the 3 × 3 window reduction. -/
theorem reduceWindow_pred (f : α → α → α) (Q : α → Prop) (hf : ∀ x y, Q (f x y) ↔ Q x ∧ Q y)
    {B H W : ℕ} {u : Shape} (x : (⟨4, ![B, H, W, 1]⟩ : Shape).Idx → α) (init : u.Idx → α)
    (h : (⟨4, ![B, H, W, 1]⟩ : Shape).ReduceWindows ![1, 3, 3, 1] ![1, 1, 1, 1] ![0, 1, 1, 0] ![0, 1, 1, 0] ⟨4, ![B, H, W, 1]⟩)
    (hu : 0 < u.numel) (hv : Q (init (Shape.Idx.first hu))) (b : Fin B) (i : Fin H) (j : Fin W) :
    Q (Host.reduceWindow f ![1, 3, 3, 1] ![1, 1, 1, 1] ![0, 1, 1, 0] ![0, 1, 1, 0] x init h hu (ix4 b i j 0))
      ↔ ∀ k l, Near k i → Near l j → Q (x (ix4 b k l 0)) := by
  unfold Host.reduceWindow
  dsimp only
  refine (foldl_pred f Q hf _ _ _).trans ?_
  constructor
  · rintro ⟨-, hall⟩ k l ⟨hk1, hk2⟩ ⟨hl1, hl2⟩
    -- the window position that lands on (k, l)
    have hdi : k.val + 1 - i.val < 3 := by omega
    have hdj : l.val + 1 - j.val < 3 := by omega
    have key := hall ((⟨4, ![1, 3, 3, 1]⟩ : Shape).rowMajor
      (ix4 (0 : Fin 1) (⟨k.val + 1 - i.val, hdi⟩ : Fin 3) (⟨l.val + 1 - j.val, hdj⟩ : Fin 3) (0 : Fin 1))) (List.mem_finRange _)
    simp only [Equiv.symm_apply_apply] at key
    have hin : ∀ a : Fin 4, (![0, 1, 1, 0] : Fin 4 → ℕ) a ≤ (ix4 b i j (0 : Fin 1) (Fin.cast h.1.symm a)).val * (![1, 1, 1, 1] : Fin 4 → ℕ) a
          + ((ix4 (0 : Fin 1) (⟨k.val + 1 - i.val, hdi⟩ : Fin 3) (⟨l.val + 1 - j.val, hdj⟩ : Fin 3) (0 : Fin 1) : (⟨4, ![1, 3, 3, 1]⟩ : Shape).Idx) a).val
        ∧ (ix4 b i j (0 : Fin 1) (Fin.cast h.1.symm a)).val * (![1, 1, 1, 1] : Fin 4 → ℕ) a
          + ((ix4 (0 : Fin 1) (⟨k.val + 1 - i.val, hdi⟩ : Fin 3) (⟨l.val + 1 - j.val, hdj⟩ : Fin 3) (0 : Fin 1) : (⟨4, ![1, 3, 3, 1]⟩ : Shape).Idx) a).val
          - (![0, 1, 1, 0] : Fin 4 → ℕ) a < (⟨4, ![B, H, W, 1]⟩ : Shape).size a := fun a => by
      match a with
      | ⟨0, _⟩ => show 0 ≤ b.val * 1 + 0 ∧ b.val * 1 + 0 - 0 < B; have := b.isLt; omega
      | ⟨1, _⟩ => show 1 ≤ i.val * 1 + (k.val + 1 - i.val) ∧ i.val * 1 + (k.val + 1 - i.val) - 1 < H; have := k.isLt; omega
      | ⟨2, _⟩ => show 1 ≤ j.val * 1 + (l.val + 1 - j.val) ∧ j.val * 1 + (l.val + 1 - j.val) - 1 < W; have := l.isLt; omega
      | ⟨3, _⟩ => show 0 ≤ 0 * 1 + 0 ∧ 0 * 1 + 0 - 0 < 1; omega
    rw [dif_pos hin] at key
    have hidx : (fun a : Fin 4 => (⟨(ix4 b i j (0 : Fin 1) (Fin.cast h.1.symm a)).val * (![1, 1, 1, 1] : Fin 4 → ℕ) a
          + ((ix4 (0 : Fin 1) (⟨k.val + 1 - i.val, hdi⟩ : Fin 3) (⟨l.val + 1 - j.val, hdj⟩ : Fin 3) (0 : Fin 1) : (⟨4, ![1, 3, 3, 1]⟩ : Shape).Idx) a).val
          - (![0, 1, 1, 0] : Fin 4 → ℕ) a, (hin a).2⟩ : Fin ((⟨4, ![B, H, W, 1]⟩ : Shape).size a)))
        = ix4 b k l (0 : Fin 1) := by
      funext a
      apply Fin.ext
      match a with
      | ⟨0, _⟩ => show b.val * 1 + 0 - 0 = b.val; omega
      | ⟨1, _⟩ => show i.val * 1 + (k.val + 1 - i.val) - 1 = k.val; omega
      | ⟨2, _⟩ => show j.val * 1 + (l.val + 1 - j.val) - 1 = l.val; omega
      | ⟨3, _⟩ => show 0 * 1 + 0 - 0 = 0; omega
    rw [hidx] at key
    exact key
  · intro hall
    refine ⟨hv, fun n _ => ?_⟩
    split
    · rename_i hin
      obtain ⟨k, l, hk, hl, e⟩ := inside_near h.1.symm b i j ((⟨4, ![1, 3, 3, 1]⟩ : Shape).rowMajor.symm n) hin
      have key := hall k l hk hl
      rw [← e] at key
      exact key
    · exact hv

/-- A window reduction by `max` from a least initial value is the separable three-tap pool by `max` of the same
    entries: the two have the same upper bounds. -/
theorem reduceWindow_max_eq_pool2 {L : Type} [LinearOrder L] (e : L) (he : ∀ c, e ≤ c)
    {B H W : ℕ} {u : Shape} (x : (⟨4, ![B, H, W, 1]⟩ : Shape).Idx → L) (init : u.Idx → L)
    (h : (⟨4, ![B, H, W, 1]⟩ : Shape).ReduceWindows ![1, 3, 3, 1] ![1, 1, 1, 1] ![0, 1, 1, 0] ![0, 1, 1, 0] ⟨4, ![B, H, W, 1]⟩)
    (hu : 0 < u.numel) (hinit : init (Shape.Idx.first hu) = e) (b : Fin B) (i : Fin H) (j : Fin W) :
    Host.reduceWindow max ![1, 3, 3, 1] ![1, 1, 1, 1] ![0, 1, 1, 0] ![0, 1, 1, 0] x init h hu (ix4 b i j 0)
      = pool2 max e (fun k l => x (ix4 b k l 0)) i j :=
  eq_of_le_iff fun c => by
    rw [reduceWindow_pred max (· ≤ c) (fun _ _ => max_le_iff) x init h hu (by rw [hinit]; exact he c) b i j,
      pool2_pred max (· ≤ c) (fun _ _ => max_le_iff) (he c)]

end Window3x3
-- ==== Proof.RefValue.lean ====
/-
  The reference computes the specification, image by image.

  Each stage of the reference (RefRun) is read at `(b, i, j, 0)` as the specification's stage of image `b` at `(i, j)`.
  The 3 × 3 window maximum with -∞ padding is the separable pool by `max` (LibWindow3x3: same upper bounds). The test
  "the window maximum of the marks, read as 0 / 1 reals, is positive" is the or over the neighbourhood: the window maximum
  is at most 0 iff every mark in the neighbourhood, as a real, is at most 0, iff every such mark is clear, iff the or is
  clear. The other stages are pointwise. No hypothesis on the scores is used.
-/
import proofs.«143672_j86775519248474_2_alg».proof.Proof.RefRun
import Idealize.ShloMosaic.Lib.Pipeline.Value
import proofs.«143672_j86775519248474_2_alg».proof.Proof.LibWindow3x3
import proofs.«143672_j86775519248474_2_alg».proof.Proof.LibBit1
import proofs.«143672_j86775519248474_2_alg».proof.Proof.NmsSpec
import proofs.«143672_j86775519248474_2_alg».proof.Proof.Consts

noncomputable section

namespace Cert.ReferenceIdeal.RefValue

open Cert.ReferenceIdeal Cert.ReferenceIdeal.Gen Idealize.ShloMosaic Idealize.ShloMosaic.ValueIdx Pool3

/-- Image `b` of a batch of scores, and of a batch of marks. -/
def img (b : Fin 16) (x : Arr Ideal) : Nms.Scores := fun i j => x (ix4 b i j 0)
def marks (b : Fin 16) (mk : Msk Ideal) : Nms.Marks := fun i j => mk (ix4 b i j 0)

theorem ninf_first : ninf (F := Ideal) (Shape.Idx.first h_S_) = (⊥ : EReal) := by
  unfold ninf
  rw [broadcastInDim_apply _ bcast_S_S_ _ (Shape.Idx.first h_S_) (fun a => a.elim0) (fun a => a.elim0), constant_apply]
  exact Nms.Consts.ninf_bits

theorem zeros_apply (y : S16x1024x1024x1.Idx) : zeros (F := Ideal) y = (0 : EReal) := by
  unfold zeros
  rw [broadcastInDim_apply _ bcast_S_S16x1024x1024x1 _ y (fun a => a.elim0) (fun a => a.elim0), constant_apply]
  exact Nms.Consts.zero_bits

theorem winmax_img (b : Fin 16) (x : Arr Ideal) : img b (winmax x) = Nms.winmax (img b x) := by
  funext i j
  refine eq_of_le_iff fun c => ?_
  show winmax x (ix4 b i j 0) ≤ c ↔ pool2 max ⊥ (img b x) i j ≤ c
  unfold winmax
  rw [Window3x3.reduceWindow_pred (FloatOps.maximumf (F := Ideal)) (· ≤ c) (fun _ _ => max_le_iff)
      x (ninf (F := Ideal)) _ h_S_ (by rw [ninf_first]; exact bot_le) b i j,
    pool2_pred max (· ≤ c) (fun _ _ => max_le_iff) bot_le]
  rfl

theorem peaks_marks (b : Fin 16) (x : Arr Ideal) : marks b (peaks x) = Nms.peaks (img b x) := by
  funext i j
  show Ideal.cmp .oeq (x (ix4 b i j 0)) (winmax x (ix4 b i j 0)) = Ideal.cmp .oeq (img b x i j) (Nms.winmax (img b x) i j)
  rw [← winmax_img]
  rfl

theorem spread_marks (b : Fin 16) (mk : Msk Ideal) : marks b (spread mk) = Nms.spread (marks b mk) := by
  funext i j
  have hW : winmax (F := Ideal) (uitofp (F := Ideal) .f32 mk) (ix4 b i j 0) ≤ 0
      ↔ ∀ k l, Near k i → Near l j → marks b mk k l = 0#1 := by
    unfold winmax
    rw [Window3x3.reduceWindow_pred (FloatOps.maximumf (F := Ideal)) (· ≤ (0 : EReal)) (fun _ _ => max_le_iff)
      (uitofp (F := Ideal) .f32 mk) (ninf (F := Ideal)) _ h_S_ (by rw [ninf_first]; exact bot_le) b i j]
    constructor
    · intro h k l hk hl; exact (Bit1.toReal_le_zero _).1 (h k l hk hl)
    · intro h k l hk hl; exact (Bit1.toReal_le_zero _).2 (h k l hk hl)
  have hS : Nms.spread (marks b mk) i j = 0#1 ↔ ∀ k l, Near k i → Near l j → marks b mk k l = 0#1 :=
    pool2_pred (fun a b : BitVec 1 => a ||| b) (· = 0#1) (fun a b => Bit1.or_eq_zero a b) rfl (marks b mk) i j
  show BitVec.ofBool (decide (zeros (F := Ideal) (ix4 b i j 0) < winmax (F := Ideal) (uitofp (F := Ideal) .f32 mk) (ix4 b i j 0)))
    = Nms.spread (marks b mk) i j
  rw [zeros_apply]
  rcases Bit1.cases (Nms.spread (marks b mk) i j) with h0 | h1
  · rw [h0, decide_eq_false (not_lt.2 (hW.2 (hS.1 h0)))]
    rfl
  · have hne : ¬ winmax (F := Ideal) (uitofp (F := Ideal) .f32 mk) (ix4 b i j 0) ≤ 0 := fun hle => by
      have := hS.2 (hW.1 hle)
      rw [h1] at this
      exact absurd this (by decide)
    rw [h1, decide_eq_true (not_le.1 hne)]
    rfl

theorem damp_img (b : Fin 16) (s : Msk Ideal) (x : Arr Ideal) : img b (damp s x) = Nms.damp (marks b s) (img b x) := by
  funext i j
  show Scalar.select (s (ix4 b i j 0)) (zeros (F := Ideal) (ix4 b i j 0)) (x (ix4 b i j 0)) = Scalar.select (s (ix4 b i j 0)) 0 (x (ix4 b i j 0))
  rw [zeros_apply]

theorem round_marks (b : Fin 16) (mk : Msk Ideal) (x : Arr Ideal) : marks b (round mk x) = Nms.round (marks b mk) (img b x) := by
  funext i j
  have h1 : peaks (damp (spread mk) x) (ix4 b i j 0) = Nms.peaks (Nms.damp (Nms.spread (marks b mk)) (img b x)) i j := by
    have := congrFun (congrFun (peaks_marks b (damp (spread mk) x)) i) j
    rw [damp_img, spread_marks] at this
    exact this
  have h2 : spread mk (ix4 b i j 0) = Nms.spread (marks b mk) i j := congrFun (congrFun (spread_marks b mk) i) j
  show mk (ix4 b i j 0) ||| (peaks (damp (spread mk) x) (ix4 b i j 0) &&& ~~~(spread mk (ix4 b i j 0)))
    = marks b mk i j ||| (Nms.peaks (Nms.damp (Nms.spread (marks b mk)) (img b x)) i j &&& ~~~(Nms.spread (marks b mk) i j))
  rw [h1, h2]
  rfl

theorem result_img (b : Fin 16) (x : Arr Ideal) : img b (result x) = Nms.nms (img b x) := by
  funext i j
  have h : round (round (peaks x) x) x (ix4 b i j 0) = Nms.round (Nms.round (Nms.peaks (img b x)) (img b x)) (img b x) i j := by
    have := congrFun (congrFun (round_marks b (round (peaks x) x) x) i) j
    rw [round_marks b (peaks x) x, peaks_marks] at this
    exact this
  show Scalar.select (round (round (peaks x) x) x (ix4 b i j 0)) (x (ix4 b i j 0)) (zeros (F := Ideal) (ix4 b i j 0))
    = Scalar.select (Nms.round (Nms.round (Nms.peaks (img b x)) (img b x)) (img b x) i j) (img b x i j) 0
  rw [h, zeros_apply]
  rfl

/-- THE REFERENCE'S RESULT is the specification of each image of the batch. -/
theorem result_eq (x : Arr Ideal) : result (F := Ideal) x = Nms.batch x := by
  funext y
  obtain ⟨b, i, j, c, rfl⟩ : ∃ (b : Fin 16) (i : Fin 1024) (j : Fin 1024) (c : Fin 1), y = ix4 b i j c :=
    ⟨y 0, y 1, y 2, y 3, eq_ix4 y⟩
  have hc : c = 0 := Subsingleton.elim _ _
  subst hc
  exact congrFun (congrFun (result_img b x) i) j

end Cert.ReferenceIdeal.RefValue

end
-- ==== Proof.lean ====
/-
  Two rounds of 3 × 3 non-maximum suppression on a batch of 16 score images: the kernel against the reference, over the
  extended reals.

  THE MATHEMATICS. For an image `x` let `winmax x` be the maximum over the 3 × 3 neighbourhood inside the image and, for a
  set of marks, `spread mk` the or over the same neighbourhood. Both programs compute, image by image,

      peaks x = (x = winmax x),    round mk x = mk ∨ (peaks (x zeroed where spread mk) ∧ ¬ spread mk),
      result  = x where round (round (peaks x) x) x, 0 elsewhere                                        (NmsSpec).

  The reference takes `winmax` as a 3 × 3 window reduction by `max` with -∞ padding, and `spread` as "the window maximum of
  the marks, read as the reals 0 / 1, is positive". The kernel takes `winmax` separably — three taps along the rows, then
  three along the columns — each outer tap a rotation of the image with -∞ ADDED on the border row or column, where the
  rotation has wrapped an entry round (x + (-∞) = -∞ and x + 0 = x for every extended real); and `spread` the same way on
  32-bit words, the marks widened to 0 / 1, the border killed by a PRODUCT with 0, combined by the signed maximum and
  compared with 0.

  WHY THEY AGREE. A maximum is determined by its upper bounds, and `· ≤ c` splits over `max`; so both the window reduction
  and the separable pool are at most `c` exactly when every entry of the neighbourhood is (LibPool3, LibWindow3x3), and they
  are equal. On widened bits the signed maximum is the or, and the or is clear exactly when every neighbour is clear, which
  is exactly when the window maximum of the 0 / 1 reals is at most 0 (LibBit1). Everything else is pointwise. Commutativity,
  associativity and idempotence of `max` are never needed, and neither is finiteness of the scores: the precondition is not
  opened.

  THE PROGRAMS. The kernel program's run is the generated frame run with its output array read block by block (one grid
  point per image: KernelValue) between two reshapes that drop and restore the unit channel axis; the reference's run is a
  straight line of host operations (RefRun, RefValue). The idealisation rewrote nothing, so `preserves` is trivial.
-/
import proofs.«143672_j86775519248474_2_alg».proof.Defs
import proofs.«143672_j86775519248474_2_alg».proof.Proof.Gen.Kernel
import proofs.«143672_j86775519248474_2_alg».proof.Proof.Gen.Kernel.Skeleton
import proofs.«143672_j86775519248474_2_alg».proof.Proof.Gen.Kernel.Launch
import proofs.«143672_j86775519248474_2_alg».proof.Proof.Gen.Kernel.Points
import proofs.«143672_j86775519248474_2_alg».proof.Proof.Gen.Kernel.Frame
import proofs.«143672_j86775519248474_2_alg».proof.Proof.Gen.KernelIdeal
import proofs.«143672_j86775519248474_2_alg».proof.Proof.Gen.KernelIdeal.Skeleton
import proofs.«143672_j86775519248474_2_alg».proof.Proof.Gen.KernelIdeal.Launch
import proofs.«143672_j86775519248474_2_alg».proof.Proof.Gen.KernelIdeal.Points
import proofs.«143672_j86775519248474_2_alg».proof.Proof.Gen.KernelIdeal.Frame
import proofs.«143672_j86775519248474_2_alg».proof.Proof.Gen.ReferenceIdeal
import proofs.«143672_j86775519248474_2_alg».proof.Proof.Gen.Pre_finite_inputs
import proofs.«143672_j86775519248474_2_alg».proof.Proof.KernelValue
import proofs.«143672_j86775519248474_2_alg».proof.Proof.RefValue
import Idealize.ShloMosaic.Adequacy
import Idealize.ShloMosaic.Init

noncomputable section

namespace Cert.Proof

open Idealize.ShloMosaic Idealize.SL.Sem

/-- The word-level kernel program and its idealisation run and leave their argument as launched: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves its argument as launched: its run with the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- The idealisation rewrote no operation. -/
theorem preserves : Cert.preserves_Kernel_KernelIdeal := trivial

/-- From memories agreeing on the argument both idealised programs end with the specification of the batch in their result. -/
theorem algebraic : Cert.algebraic_KernelIdeal_ReferenceIdeal := by
  intro m ρ m' ρ' _ hagree
  refine ⟨fun c => Nms.batch (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨?_, (h c).2⟩)
    (Cert.ReferenceIdeal.RefValue.run (F := Ideal) m' ρ')
  rw [(h c).1, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
